-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x3 : Shape := ⟨3, ![8, 8192, 3]⟩
abbrev S8x64x8192 : Shape := ⟨3, ![8, 64, 8192]⟩
abbrev S8x2048x32 : Shape := ⟨3, ![8, 2048, 32]⟩
abbrev S8x2048 : Shape := ⟨2, ![8, 2048]⟩
abbrev S67x128 : Shape := ⟨2, ![67, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S_ : Shape := ⟨0, ![]⟩

class Facts : Prop where
  bcast_S_S8x8192x3 : S_.BroadcastsInDim S8x8192x3 (![] : Fin 0 → Fin S8x8192x3.rank)
  reducesTo_S8x8192x3_S_d0_1_2 : S8x8192x3.ReducesTo [0, 1, 2] S_
  h_S_ : 0 < S_.numel
  bcast_S_S8x64x8192 : S_.BroadcastsInDim S8x64x8192 (![] : Fin 0 → Fin S8x64x8192.rank)
  reducesTo_S8x64x8192_S_d0_1_2 : S8x64x8192.ReducesTo [0, 1, 2] S_
  bcast_S_S67x128 : S_.BroadcastsInDim S67x128 (![] : Fin 0 → Fin S67x128.rank)
  reducesTo_S67x128_S_d0_1 : S67x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg9 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x256 .f32) (main_arg9 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg8
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg9 main_v33

def fn {F : FTy → Type} [FloatOps F] (main_arg0 : FVec F S8x8192x3 .f32) (main_arg1 : FVec F S8x64x8192 .f32) (main_arg2 : IVec S8x2048x32 32) (main_arg3 : IVec S8x2048 32) (main_arg4 : FVec F S67x128 .f32) (main_arg5 : FVec F S128 .f32) (main_arg6 : FVec F S128x128 .f32) (main_arg7 : FVec F S128 .f32) (main_arg8 : FVec F S128x256 .f32) (main_arg9 : FVec F S256 .f32) : IVec S_ 1 :=
  let main_v0 : FVec F S8x8192x3 .f32 := Host.absf main_arg0
  let main_cst : FVec F S_ .f32 := constant S_ .f32 0x7F800000#32
  let main_v1 : FVec F S8x8192x3 .f32 := broadcastInDim S8x8192x3 ![] bcast_S_S8x8192x3 main_cst
  let main_v2 : IVec S8x8192x3 1 := cmpf .olt main_v0 main_v1
  let main_c : IVec S_ 1 := constantI S_ 1 1#1
  let main_v3 : IVec S_ 1 := (fun x v => Host.reduce IntOp.andi x v reducesTo_S8x8192x3_S_d0_1_2 h_S_) main_v2 main_c
  let main_v4 : FVec F S8x64x8192 .f32 := Host.absf main_arg1
  let main_cst_0 : FVec F S_ .f32 := constant S_ .f32 0x7F800000#32
  let main_v5 : FVec F S8x64x8192 .f32 := broadcastInDim S8x64x8192 ![] bcast_S_S8x64x8192 main_cst_0
  let main_v6 : IVec S8x64x8192 1 := cmpf .olt main_v4 main_v5
  let main_c_1 : IVec S_ 1 := constantI S_ 1 1#1
  let main_v7 : IVec S_ 1 := (fun x v => Host.reduce IntOp.andi x v reducesTo_S8x64x8192_S_d0_1_2 h_S_) main_v6 main_c_1
  let main_v8 : IVec S_ 1 := andi main_v3 main_v7
  let main_v9 : FVec F S67x128 .f32 := Host.absf main_arg4
  let main_cst_2 : FVec F S_ .f32 := constant S_ .f32 0x7F800000#32
  let main_v10 : FVec F S67x128 .f32 := broadcastInDim S67x128 ![] bcast_S_S67x128 main_cst_2
  let main_v11 : IVec S67x128 1 := cmpf .olt main_v9 main_v10
  let main_c_3 : IVec S_ 1 := constantI S_ 1 1#1
  let main_v12 : IVec S_ 1 := (fun x v => Host.reduce IntOp.andi x v reducesTo_S67x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S8x8192x3 : Shape := ⟨3, ![8, 8192, 3]⟩
abbrev S8x64x8192 : Shape := ⟨3, ![8, 64, 8192]⟩
abbrev S8x2048x32 : Shape := ⟨3, ![8, 2048, 32]⟩
abbrev S8x2048 : Shape := ⟨2, ![8, 2048]⟩
abbrev S67x128 : Shape := ⟨2, ![67, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S_ : Shape := ⟨0, ![]⟩
abbrev S8x2048x1 : Shape := ⟨3, ![8, 2048, 1]⟩
abbrev S8x2048x3 : Shape := ⟨3, ![8, 2048, 3]⟩
abbrev S8x2048x32x1 : Shape := ⟨4, ![8, 2048, 32, 1]⟩
abbrev S8x2048x32x3 : Shape := ⟨4, ![8, 2048, 32, 3]⟩
abbrev S8x2048x1x3 : Shape := ⟨4, ![8, 2048, 1, 3]⟩
abbrev S8x8192x64 : Shape := ⟨3, ![8, 8192, 64]⟩
abbrev S8x2048x32x64 : Shape := ⟨4, ![8, 2048, 32, 64]⟩
abbrev S8x2048x32x67 : Shape := ⟨4, ![8, 2048, 32, 67]⟩
abbrev S16384x32x67 : Shape := ⟨3, ![16384, 32, 67]⟩
abbrev S16384x256 : Shape := ⟨2, ![16384, 256]⟩
abbrev S256x32x67 : Shape := ⟨3, ![256, 32, 67]⟩
abbrev S256x256 : Shape := ⟨2, ![256, 256]⟩
abbrev S8192x67 : Shape := ⟨2, ![8192, 67]⟩
abbrev S8192x128 : Shape := ⟨2, ![8192, 128]⟩
abbrev S1x128 : Shape := ⟨2, ![1, 128]⟩
abbrev S8192x256 : Shape := ⟨2, ![8192, 256]⟩
abbrev S1x256 : Shape := ⟨2, ![1, 256]⟩
abbrev S256x32x256 : Shape := ⟨3, ![256, 32, 256]⟩
abbrev S8x2048x256 : Shape := ⟨3, ![8, 2048, 256]⟩
abbrev S8x256x2048 : Shape := ⟨3, ![8, 256, 2048]⟩

abbrev nBuf : Space → Nat
  | .hbm => 46
  | .vmem => 10
  | .smem => 0
  | _ => 0

abbrev bufTy : (tb : Table) → Fin (tcTables nBuf tb) → BufTy
  | .hbm, ⟨0, _⟩ => ⟨S8x8192x3, .f32⟩
  | .hbm, ⟨1, _⟩ => ⟨S8x64x8192, .f32⟩
  | .hbm, ⟨2, _⟩ => ⟨S8x2048x32, .i32⟩
  | .hbm, ⟨3, _⟩ => ⟨S8x2048, .i32⟩
  | .hbm, ⟨4, _⟩ => ⟨S67x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S_, .i32⟩
  | .hbm, ⟨11, _⟩ => ⟨S8x2048, .i32⟩
  | .hbm, ⟨12, _⟩ => ⟨S8x2048, .i1⟩
  | .hbm, ⟨13, _⟩ => ⟨S_, .i32⟩
  | .hbm, ⟨14, _⟩ => ⟨S8x2048, .i32⟩
  | .hbm, ⟨15, _⟩ => ⟨S8x2048, .i32⟩
  | .hbm, ⟨16, _⟩ => ⟨S8x2048, .i32⟩
  | .hbm, ⟨17, _⟩ => ⟨S8x2048x1, .i32⟩
  | .hbm, ⟨18, _⟩ => ⟨S8x2048x3, .f32⟩
  | .hbm, ⟨19, _⟩ => ⟨S_, .i32⟩
  | .hbm, ⟨20, _⟩ => ⟨S8x2048x32, .i32⟩
  | .hbm, ⟨21, _⟩ => ⟨S8x2048x32, .i1⟩
  | .hbm, ⟨22, _⟩ => ⟨S_, .i32⟩
  | .hbm, ⟨23, _⟩ => ⟨S8x2048x32, .i32⟩
  | .hbm, ⟨24, _⟩ => ⟨S8x2048x32, .i32⟩
  | .hbm, ⟨25, _⟩ => ⟨S8x2048x32, .i32⟩
  | .hbm, ⟨26, _⟩ => ⟨S8x2048x32x1, .i32⟩
  | .hbm, ⟨27, _⟩ => ⟨S8x2048x32x3, .f32⟩
  | .hbm, ⟨28, _⟩ => ⟨S8x2048x1x3, .f32⟩
  | .hbm, ⟨29, _⟩ => ⟨S8x2048x32x3, .f32⟩
  | .hbm, ⟨30, _⟩ => ⟨S8x2048x32x3, .f32⟩
  | .hbm, ⟨31, _⟩ => ⟨S8x8192x64, .f32⟩
  | .hbm, ⟨32, _⟩ => ⟨S_, .i32⟩
  | .hbm, ⟨33, _⟩ => ⟨S8x2048x32, .i32⟩
  | .hbm, ⟨34, _⟩ => ⟨S8x2048x32, .i1⟩
  | .hbm, ⟨35, _⟩ => ⟨S_, .i32⟩
  | .hbm, ⟨36, _⟩ => ⟨S8x2048x32, .i32⟩
  | .hbm, ⟨37, _⟩ => ⟨S8x2048x32, .i32⟩
  | .hbm, ⟨38, _⟩ => ⟨S8x2048x32, .i32⟩
  | .hbm, ⟨39, _⟩ => ⟨S8x2048x32x1, .i32⟩
  | .hbm, ⟨40, _⟩ => ⟨S8x2048x32x64, .f32⟩
  | .hbm, ⟨41, _⟩ => ⟨S8x2048x32x67, .f32⟩
  | .hbm, ⟨42, _⟩ => ⟨S16384x32x67, .f32⟩
  | .hbm, ⟨43, _⟩ => ⟨S16384x256, .f32⟩
  | .hbm, ⟨44, _⟩ => ⟨S8x2048x256, .f32⟩
  | .hbm, ⟨45, _⟩ => ⟨S8x256x2048, .f32⟩
  | .local _ .vmem, ⟨0, _⟩ => ⟨S256x32x67, .f32⟩
  | .local _ .vmem, ⟨1, _⟩ => ⟨S256x32x67, .f32⟩
  | .local _ .vmem, ⟨2, _⟩ => ⟨S67x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x256, .f32⟩
  | .local _ .vmem, ⟨7, _⟩ => ⟨S256, .f32⟩
  | .local _ .vmem, ⟨8, _⟩ => ⟨S256x256, .f32⟩
  | .local _ .vmem, ⟨9, _⟩ => ⟨S256x256, .f32⟩
  | _, _ => ⟨S8x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32x67 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S67x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S_S8x2048x32 : S_.BroadcastsInDim S8x2048x32 (![] : Fin 0 → Fin S8x2048x32.rank)
  bcast_S8x2048x32_S8x2048x32x1_0_1_2 : S8x2048x32.BroadcastsInDim S8x2048x32x1 (![0, 1, 2] : Fin 3 → Fin S8x2048x32x1.rank)
  bcast_S8x2048x3_S8x2048x1x3_0_1_3 : S8x2048x3.BroadcastsInDim S8x2048x1x3 (![0, 1, 3] : Fin 3 → Fin S8x2048x1x3.rank)
  bcast_S8x2048x1x3_S8x2048x32x3_0_1_2_3 : S8x2048x1x3.BroadcastsInDim S8x2048x32x3 (![0, 1, 2, 3] : Fin 4 → Fin S8x2048x32x3.rank)
  transposes_S8x64x8192_S8x8192x64_0_2_1 : S8x64x8192.Transposes [0, 2, 1] S8x8192x64
  concatenates_S8x2048x32x3_S8x2048x32x64_S8x2048x32x67_d3 : Shape.Concatenates [S8x2048x32x3, S8x2048x32x64] S8x2048x32x67 3
  shapeCasts_S8x2048x32x67_S16384x32x67 : S8x2048x32x67.ShapeCasts S16384x32x67
  inb_S256x32x67_S256x32x67_0_0_0 : ∀ a, (![0, 0, 0] : Fin 3 → Nat) a + S256x32x67.size a ≤ S256x32x67.size a
  h_S256x32x67 : 0 < S256x32x67.numel
  shapeCasts_S256x32x67_S256x32x67 : S256x32x67.ShapeCasts S256x32x67
  shapeCasts_S256x32x67_S8192x67 : S256x32x67.ShapeCasts S8192x67
  bitsLt_bf16_f32 : FTy.bits .bf16 < FTy.bits .f32
  inb_S67x128_S67x128_0_0 : ∀ a, (![0, 0] : Fin 2 → Nat) a + S67x128.size a ≤ S67x128.size a
  h_S67x128 : 0 < S67x128.numel
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S128x128_S128x128_0_0 : ∀ a, (![0, 0] : Fin 2 → Nat) a + S128x128.size a ≤ S128x128.size a
  h_S128x128 : 0 < S128x128.numel
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S8192x256 : S1x256.Broadcasts S8192x256
  shapeCasts_S8192x256_S256x32x256 : S8192x256.ShapeCasts S256x32x256
  reduces_S256x32x256_S256x256 : S256x32x256.Reduces [1] S256x256
  inb_S256x256_S256x256_0_0 : ∀ a, (![0, 0] : Fin 2 → Nat) a + S256x256.size a ≤ S256x256.size a
  h_S256x256 : 0 < S256x256.numel
  shapeCasts_S16384x256_S8x2048x256 : S16384x256.ShapeCasts S8x2048x256
  transposes_S8x2048x256_S8x256x2048_0_2_1 : S8x2048x256.Transposes [0, 2, 1] S8x256x2048
  gather_S8x8192x3_S8x2048x1_S8x2048x3_2_1_0_0_1_2_113_wf : GatherDims.WF S8x8192x3 S8x2048x1 S8x2048x3 [2] [1] [0] [1] [0] 2 ![1, 1, 3]
  gather_S8x8192x3_S8x2048x32x1_S8x2048x32x3_3_1_0_0_1_3_113_wf : GatherDims.WF S8x8192x3 S8x2048x32x1 S8x2048x32x3 [3] [1] [0] [1] [0] 3 ![1, 1, 3]
  gather_S8x8192x64_S8x2048x32x1_S8x2048x32x64_3_1_0_0_1_3_1164_wf : GatherDims.WF S8x8192x64 S8x2048x32x1 S8x2048x32x64 [3] [1] [0] [1] [0] 3 ![1, 1, 64]
  dot_S8192x67_S67x128_S8192x128_1_0_0_1_n_n_wf : DotDims.WF S8192x67 S67x128 S8192x128 [1] [0] [0] [1] [] []
  dot_S8192x128_S128x128_S8192x128_1_0_0_1_n_n_wf : DotDims.WF S8192x128 S128x128 S8192x128 [1] [0] [0] [1] [] []
  dot_S8192x128_S128x256_S8192x256_1_0_0_1_n_n_wf : DotDims.WF S8192x128 S128x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32x67.size a ≤ S16384x32x67.size a
  hwx0_0 : ∀ i : grid0.Coords, EltTy.bits .f32 = 32 ∨ (Rect.block (s := S16384x32x67) S256x32x67.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S67x128.size a ≤ S67x128.size a
  hwx0_1 : ∀ i : grid0.Coords, EltTy.bits .f32 = 32 ∨ (Rect.block (s := S67x128) S67x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S16384x256.size a
  hwx0_7 : ∀ i : grid0.Coords, EltTy.bits .f32 = 32 ∨ (Rect.block (s := S16384x256) S256x256.size (cc0_transform_7 i) (hinb0_7 i)).WholeWords (EltTy.packing .f32)

variable [Facts₀]

def gather_S8x8192x3_S8x2048x1_S8x2048x3_2_1_0_0_1_2_113 : GatherDims S8x8192x3 S8x2048x1 S8x2048x3 where
  offsetDims := [2]
  collapsedSliceDims := [1]
  operandBatchingDims := [0]
  startIndicesBatchingDims := [0]
  startIndexMap := [1]
  indexVectorDim := 2
  sliceSizes := ![1, 1, 3]
  wf := gather_S8x8192x3_S8x2048x1_S8x2048x3_2_1_0_0_1_2_113_wf
def gather_S8x8192x3_S8x2048x32x1_S8x2048x32x3_3_1_0_0_1_3_113 : GatherDims S8x8192x3 S8x2048x32x1 S8x2048x32x3 where
  offsetDims := [3]
  collapsedSliceDims := [1]
  operandBatchingDims := [0]
  startIndicesBatchingDims := [0]
  startIndexMap := [1]
  indexVectorDim := 3
  sliceSizes := ![1, 1, 3]
  wf := gather_S8x8192x3_S8x2048x32x1_S8x2048x32x3_3_1_0_0_1_3_113_wf
def gather_S8x8192x64_S8x2048x32x1_S8x2048x32x64_3_1_0_0_1_3_1164 : GatherDims S8x8192x64 S8x2048x32x1 S8x2048x32x64 where
  offsetDims := [3]
  collapsedSliceDims := [1]
  operandBatchingDims := [0]
  startIndicesBatchingDims := [0]
  startIndexMap := [1]
  indexVectorDim := 3
  sliceSizes := ![1, 1, 64]
  wf := gather_S8x8192x64_S8x2048x32x1_S8x2048x32x64_3_1_0_0_1_3_1164_wf
def dot_S8192x67_S67x128_S8192x128_1_0_0_1_n_n : DotDims S8192x67 S67x128 S8192x128 where
  lhsContracting := [1]
  rhsContracting := [0]
  lhsNonContracting := [0]
  rhsNonContracting := [1]
  lhsBatch := []
  rhsBatch := []
  wf := dot_S8192x67_S67x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf

abbrev win0_0 : Pipeline.Window sig grid0 :=
  Pipeline.Window.ofSpec (Memref.whole main_v26) S256x32x67.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S67x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S256x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x8192x3 : Shape := ⟨3, ![8, 8192, 3]⟩
abbrev S8x64x8192 : Shape := ⟨3, ![8, 64, 8192]⟩
abbrev S8x2048x32 : Shape := ⟨3, ![8, 2048, 32]⟩
abbrev S8x2048 : Shape := ⟨2, ![8, 2048]⟩
abbrev S67x128 : Shape := ⟨2, ![67, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S_ : Shape := ⟨0, ![]⟩
abbrev S8x2048x1 : Shape := ⟨3, ![8, 2048, 1]⟩
abbrev S8x2048x3 : Shape := ⟨3, ![8, 2048, 3]⟩
abbrev S8x2048x32x1 : Shape := ⟨4, ![8, 2048, 32, 1]⟩
abbrev S8x2048x32x3 : Shape := ⟨4, ![8, 2048, 32, 3]⟩
abbrev S8x2048x1x3 : Shape := ⟨4, ![8, 2048, 1, 3]⟩
abbrev S8x8192x64 : Shape := ⟨3, ![8, 8192, 64]⟩
abbrev S8x2048x32x64 : Shape := ⟨4, ![8, 2048, 32, 64]⟩
abbrev S8x2048x32x67 : Shape := ⟨4, ![8, 2048, 32, 67]⟩
abbrev S8x2048x32x128 : Shape := ⟨4, ![8, 2048, 32, 128]⟩
abbrev S1x1x1x128 : Shape := ⟨4, ![1, 1, 1, 128]⟩
abbrev S8x2048x32x256 : Shape := ⟨4, ![8, 2048, 32, 256]⟩
abbrev S1x1x1x256 : Shape := ⟨4, ![1, 1, 1, 256]⟩
abbrev S8x2048x256 : Shape := ⟨3, ![8, 2048, 256]⟩
abbrev S8x256x2048 : Shape := ⟨3, ![8, 256, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8x8192x3, .f32⟩
  | .hbm, ⟨1, _⟩ => ⟨S8x64x8192, .f32⟩
  | .hbm, ⟨2, _⟩ => ⟨S8x2048x32, .i32⟩
  | .hbm, ⟨3, _⟩ => ⟨S8x2048, .i32⟩
  | .hbm, ⟨4, _⟩ => ⟨S67x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S_, .i32⟩
  | .hbm, ⟨11, _⟩ => ⟨S8x2048, .i32⟩
  | .hbm, ⟨12, _⟩ => ⟨S8x2048, .i1⟩
  | .hbm, ⟨13, _⟩ => ⟨S_, .i32⟩
  | .hbm, ⟨14, _⟩ => ⟨S8x2048, .i32⟩
  | .hbm, ⟨15, _⟩ => ⟨S8x2048, .i32⟩
  | .hbm, ⟨16, _⟩ => ⟨S8x2048, .i32⟩
  | .hbm, ⟨17, _⟩ => ⟨S8x2048x1, .i32⟩
  | .hbm, ⟨18, _⟩ => ⟨S8x2048x3, .f32⟩
  | .hbm, ⟨19, _⟩ => ⟨S_, .i32⟩
  | .hbm, ⟨20, _⟩ => ⟨S8x2048x32, .i32⟩
  | .hbm, ⟨21, _⟩ => ⟨S8x2048x32, .i1⟩
  | .hbm, ⟨22, _⟩ => ⟨S_, .i32⟩
  | .hbm, ⟨23, _⟩ => ⟨S8x2048x32, .i32⟩
  | .hbm, ⟨24, _⟩ => ⟨S8x2048x32, .i32⟩
  | .hbm, ⟨25, _⟩ => ⟨S8x2048x32, .i32⟩
  | .hbm, ⟨26, _⟩ => ⟨S8x2048x32x1, .i32⟩
  | .hbm, ⟨27, _⟩ => ⟨S8x2048x32x3, .f32⟩
  | .hbm, ⟨28, _⟩ => ⟨S8x2048x1x3, .f32⟩
  | .hbm, ⟨29, _⟩ => ⟨S8x2048x32x3, .f32⟩
  | .hbm, ⟨30, _⟩ => ⟨S8x2048x32x3, .f32⟩
  | .hbm, ⟨31, _⟩ => ⟨S8x8192x64, .f32⟩
  | .hbm, ⟨32, _⟩ => ⟨S_, .i32⟩
  | .hbm, ⟨33, _⟩ => ⟨S8x2048x32, .i32⟩
  | .hbm, ⟨34, _⟩ => ⟨S8x2048x32, .i1⟩
  | .hbm, ⟨35, _⟩ => ⟨S_, .i32⟩
  | .hbm, ⟨36, _⟩ => ⟨S8x2048x32, .i32⟩
  | .hbm, ⟨37, _⟩ => ⟨S8x2048x32, .i32⟩
  | .hbm, ⟨38, _⟩ => ⟨S8x2048x32, .i32⟩
  | .hbm, ⟨39, _⟩ => ⟨S8x2048x32x1, .i32⟩
  | .hbm, ⟨40, _⟩ => ⟨S8x2048x32x64, .f32⟩
  | .hbm, ⟨41, _⟩ => ⟨S8x2048x32x67, .f32⟩
  | .hbm, ⟨42, _⟩ => ⟨S8x2048x32x128, .f32⟩
  | .hbm, ⟨43, _⟩ => ⟨S1x1x1x128, .f32⟩
  | .hbm, ⟨44, _⟩ => ⟨S8x2048x32x128, .f32⟩
  | .hbm, ⟨45, _⟩ => ⟨S8x2048x32x128, .f32⟩
  | .hbm, ⟨46, _⟩ => ⟨S_, .f32⟩
  | .hbm, ⟨47, _⟩ => ⟨S8x2048x32x128, .f32⟩
  | .hbm, ⟨48, _⟩ => ⟨S8x2048x32x128, .f32⟩
  | .hbm, ⟨49, _⟩ => ⟨S8x2048x32x128, .f32⟩
  | .hbm, ⟨50, _⟩ => ⟨S1x1x1x128, .f32⟩
  | .hbm, ⟨51, _⟩ => ⟨S8x2048x32x128, .f32⟩
  | .hbm, ⟨52, _⟩ => ⟨S8x2048x32x128, .f32⟩
  | .hbm, ⟨53, _⟩ => ⟨S_, .f32⟩
  | .hbm, ⟨54, _⟩ => ⟨S8x2048x32x128, .f32⟩
  | .hbm, ⟨55, _⟩ => ⟨S8x2048x32x128, .f32⟩
  | .hbm, ⟨56, _⟩ => ⟨S8x2048x32x256, .f32⟩
  | .hbm, ⟨57, _⟩ => ⟨S1x1x1x256, .f32⟩
  | .hbm, ⟨58, _⟩ => ⟨S8x2048x32x256, .f32⟩
  | .hbm, ⟨59, _⟩ => ⟨S8x2048x32x256, .f32⟩
  | .hbm, ⟨60, _⟩ => ⟨S_, .f32⟩
  | .hbm, ⟨61, _⟩ => ⟨S8x2048x32x256, .f32⟩
  | .hbm, ⟨62, _⟩ => ⟨S8x2048x32x256, .f32⟩
  | .hbm, ⟨63, _⟩ => ⟨S_, .f32⟩
  | .hbm, ⟨64, _⟩ => ⟨S8x2048x256, .f32⟩
  | .hbm, ⟨65, _⟩ => ⟨S8x256x2048, .f32⟩
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_cst : Ref sig .tc := ⟨.hbm, 53, rfl⟩
abbrev main_call1_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call2_cst : Ref sig .tc := ⟨.hbm, 60, rfl⟩
abbrev main_call2_v0 : Ref sig .tc := ⟨.hbm, 61, rfl⟩
abbrev main_v40 : Ref sig .tc := ⟨.hbm, 62, rfl⟩
abbrev main_cst : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]

class Facts₀ : Prop where
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S_S8x2048x32 : S_.BroadcastsInDim S8x2048x32 (![] : Fin 0 → Fin S8x2048x32.rank)
  bcast_S8x2048x32_S8x2048x32x1_0_1_2 : S8x2048x32.BroadcastsInDim S8x2048x32x1 (![0, 1, 2] : Fin 3 → Fin S8x2048x32x1.rank)
  bcast_S8x2048x3_S8x2048x1x3_0_1_3 : S8x2048x3.BroadcastsInDim S8x2048x1x3 (![0, 1, 3] : Fin 3 → Fin S8x2048x1x3.rank)
  bcast_S8x2048x1x3_S8x2048x32x3_0_1_2_3 : S8x2048x1x3.BroadcastsInDim S8x2048x32x3 (![0, 1, 2, 3] : Fin 4 → Fin S8x2048x32x3.rank)
  transposes_S8x64x8192_S8x8192x64_0_2_1 : S8x64x8192.Transposes [0, 2, 1] S8x8192x64
  concatenates_S8x2048x32x3_S8x2048x32x64_S8x2048x32x67_d3 : Shape.Concatenates [S8x2048x32x3, S8x2048x32x64] S8x2048x32x67 3
  bcast_S128_S1x1x1x128_3 : S128.BroadcastsInDim S1x1x1x128 (![3] : Fin 1 → Fin S1x1x1x128.rank)
  bcast_S1x1x1x128_S8x2048x32x128_0_1_2_3 : S1x1x1x128.BroadcastsInDim S8x2048x32x128 (![0, 1, 2, 3] : Fin 4 → Fin S8x2048x32x128.rank)
  bcast_S_S8x2048x32x128 : S_.BroadcastsInDim S8x2048x32x128 (![] : Fin 0 → Fin S8x2048x32x128.rank)
  bcast_S256_S1x1x1x256_3 : S256.BroadcastsInDim S1x1x1x256 (![3] : Fin 1 → Fin S1x1x1x256.rank)
  bcast_S1x1x1x256_S8x2048x32x256_0_1_2_3 : S1x1x1x256.BroadcastsInDim S8x2048x32x256 (![0, 1, 2, 3] : Fin 4 → Fin S8x2048x32x256.rank)
  bcast_S_S8x2048x32x256 : S_.BroadcastsInDim S8x2048x32x256 (![] : Fin 0 → Fin S8x2048x32x256.rank)
  reducesTo_S8x2048x32x256_S8x2048x256_d2 : S8x2048x32x256.ReducesTo [2] S8x2048x256
  h_S_ : 0 < S_.numel
  transposes_S8x2048x256_S8x256x2048_0_2_1 : S8x2048x256.Transposes [0, 2, 1] S8x256x2048
  gather_S8x8192x3_S8x2048x1_S8x2048x3_2_1_0_0_1_2_113_wf : GatherDims.WF S8x8192x3 S8x2048x1 S8x2048x3 [2] [1] [0] [1] [0] 2 ![1, 1, 3]
  gather_S8x8192x3_S8x2048x32x1_S8x2048x32x3_3_1_0_0_1_3_113_wf : GatherDims.WF S8x8192x3 S8x2048x32x1 S8x2048x32x3 [3] [1] [0] [1] [0] 3 ![1, 1, 3]
  gather_S8x8192x64_S8x2048x32x1_S8x2048x32x64_3_1_0_0_1_3_1164_wf : GatherDims.WF S8x8192x64 S8x2048x32x1 S8x2048x32x64 [3] [1] [0] [1] [0] 3 ![1, 1, 64]
  dot_S8x2048x32x67_S67x128_S8x2048x32x128_3_0_012_1_n_n_wf : DotDims.WF S8x2048x32x67 S67x128 S8x2048x32x128 [3] [0] [0, 1, 2] [1] [] []
  dot_S8x2048x32x128_S128x128_S8x2048x32x128_3_0_012_1_n_n_wf : DotDims.WF S8x2048x32x128 S128x128 S8x2048x32x128 [3] [0] [0, 1, 2] [1] [] []
  dot_S8x2048x32x128_S128x256_S8x2048x32x256_3_0_012_1_n_n_wf : DotDims.WF S8x2048x32x128 S128x256 S8x2048x32x256 [3] [0] [0, 1, 2] [1] [] []

variable [Facts₀]

def gather_S8x8192x3_S8x2048x1_S8x2048x3_2_1_0_0_1_2_113 : GatherDims S8x8192x3 S8x2048x1 S8x2048x3 where
  offsetDims := [2]
  collapsedSliceDims := [1]
  operandBatchingDims := [0]
  startIndicesBatchingDims := [0]
  startIndexMap := [1]
  indexVectorDim := 2
  sliceSizes := ![1, 1, 3]
  wf := gather_S8x8192x3_S8x2048x1_S8x2048x3_2_1_0_0_1_2_113_wf
def gather_S8x8192x3_S8x2048x32x1_S8x2048x32x3_3_1_0_0_1_3_113 : GatherDims S8x8192x3 S8x2048x32x1 S8x2048x32x3 where
  offsetDims := [3]
  collapsedSliceDims := [1]
  operandBatchingDims := [0]
  startIndicesBatchingDims := [0]
  startIndexMap := [1]
  indexVectorDim := 3
  sliceSizes := ![1, 1, 3]
  wf := gather_S8x8192x3_S8x2048x32x1_S8x2048x32x3_3_1_0_0_1_3_113_wf
def gather_S8x8192x64_S8x2048x32x1_S8x2048x32x64_3_1_0_0_1_3_1164 : GatherDims S8x8192x64 S8x2048x32x1 S8x2048x32x64 where
  offsetDims := [3]
  collapsedSliceDims := [1]
  operandBatchingDims := [0]
  startIndicesBatchingDims := [0]
  startIndexMap := [1]
  indexVectorDim := 3
  sliceSizes := ![1, 1, 64]
  wf := gather_S8x8192x64_S8x2048x32x1_S8x2048x32x64_3_1_0_0_1_3_1164_wf
def dot_S8x2048x32x67_S67x128_S8x2048x32x128_3_0_012_1_n_n : DotDims S8x2048x32x67 S67x128 S8x2048x32x128 where
  lhsContracting := [3]
  rhsContracting := [0]
  lhsNonContracting := [0, 1, 2]
  rhsNonContracting := [1]
  lhsBatch := []
  rhsBatch := []
  wf := dot_S8x2048x32x67_S67x128_S8x2048x32x128_3_0_012_1_n_n_wf
def dot_S8x2048x32x128_S128x128_S8x2048x32x128_3_0_012_1_n_n : DotDims S8x2048x32x128 S128x128 S8x2048x32x128 where
  lhsContracting := [3]
  rhsContracting := [0]
  lhsNonContracting := [0, 1, 2]
  rhsNonContracting := [1]
  lhsBatch := []
  rhsBatch := []
  wf := dot_S8x2048x32x128_S128x128_S8x2048x32x128_3_0_012_1_n_n_wf
def dot_S8x2048x32x128_S128x256_S8x2048x32x256_3_0_012_1_n_n : DotDims S8x2048x32x128 S128x256 S8x2048x32x256 where
  lhsContracting := [3]
  rhsContracting := [0]
  lhsNonContracting := [0, 1, 2]
  rhsNonContracting := [1]
  lhsBatch := []
  rhsBatch := []
  wf := dot_S8x2048x32x128_S128x256_S8x2048x32x256_3_0_012_1_n_n_wf

class Facts : Prop extends Facts₀ where

variable [Facts]
-- ==== Proof.PointMlp.lean ====
/-
  The function both programs compute, over the extended reals.

  Every one of the 8 · 2048 · 32 neighbour points carries a feature row `x : Fin 67 → EReal`. The shared perceptron
  sends it through three dense layers, each `o ↦ max (Σ_c x c · W (c, o) + b o) z` with `z` the value of the zero
  word (the rectifier), of widths 67 → 128 → 128 → 256. The result at batch `b`, anchor `m` and output channel `o`
  is the greatest of the 32 neighbours' values at `o`, a fold of `max` that starts from the value `ninf` of the
  minus-infinity word. The two literal words are kept as parameters `z` and `ninf`: the same word stands on both
  sides and is never evaluated.

  Three arrangements of that one function are named here: `pooled` over the feature array laid out
  `[8, 2048, 32, 67]` with the result laid out `[8, 256, 2048]` (channel before anchor); `rowsPooled` over a
  feature array whose batch and anchor axes are merged, `[P, 32, 67]`, with the result `[P, 256]`; they agree once
  a merged row `p = b · 2048 + m` is split again (`rowsPooled_merge`).
-/
import Idealize.ShloMosaic.PureOps.Ideal
import Idealize.ShloMosaic.Lib.ValueIdx

noncomputable section

namespace Cert.PointConv

open Idealize.ShloMosaic Idealize.ShloMosaic.ValueIdx

/-- One dense layer followed by the rectifier: `o ↦ max (Σ_c x c · W (c, o) + b o) z`. -/
def dense {n k : Nat} (z : EReal) (x : Fin n → EReal) (W : (⟨2, ![n, k]⟩ : Shape).Idx → EReal)
    (b : (⟨1, ![k]⟩ : Shape).Idx → EReal) : Fin k → EReal :=
  fun o => max ((∑ c : Fin n, x c * W (ix2 c o)) + b (ix1 o)) z

/-- The shared perceptron of one point: three dense layers, 67 → 128 → 128 → 256. -/
def mlp (z : EReal) (x : Fin 67 → EReal)
    (W1 : (⟨2, ![67, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 256]⟩ : Shape).Idx → EReal) (b3 : (⟨1, ![256]⟩ : Shape).Idx → EReal) : Fin 256 → EReal :=
  dense z (dense z (dense z x W1 b1) W2 b2) W3 b3

/-- The greatest of a neighbourhood's 32 values, folded from `ninf`. -/
def nbrMax (ninf : EReal) (f : Fin 32 → EReal) : EReal :=
  (Finset.univ : Finset (Fin 32)).fold max ninf f

/-- Rows of merged (batch, anchor) pairs: row `p`, channel `o` is the pooled perceptron of row `p`'s 32 points. -/
def rowsPooled {P : Nat} (z ninf : EReal) (X : (⟨3, ![P, 32, 67]⟩ : Shape).Idx → EReal)
    (W1 : (⟨2, ![67, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 256]⟩ : Shape).Idx → EReal) (b3 : (⟨1, ![256]⟩ : Shape).Idx → EReal) :
    (⟨2, ![P, 256]⟩ : Shape).Idx → EReal :=
  fun j => nbrMax ninf fun k => mlp z (fun c => X (ix3 (⟨(j 0).val, (j 0).isLt⟩ : Fin P) k c)) W1 b1 W2 b2 W3 b3
    (⟨(j 1).val, (j 1).isLt⟩ : Fin 256)

/-- The result array `[8, 256, 2048]`: at (batch, channel, anchor) the pooled perceptron of that anchor's points. -/
def pooled (z ninf : EReal) (X : (⟨4, ![8, 2048, 32, 67]⟩ : Shape).Idx → EReal)
    (W1 : (⟨2, ![67, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 256]⟩ : Shape).Idx → EReal) (b3 : (⟨1, ![256]⟩ : Shape).Idx → EReal) :
    (⟨3, ![8, 256, 2048]⟩ : Shape).Idx → EReal :=
  fun i => nbrMax ninf fun k => mlp z (fun c => X (ix4 (⟨(i 0).val, (i 0).isLt⟩ : Fin 8) (⟨(i 2).val, (i 2).isLt⟩ : Fin 2048) k c))
    W1 b1 W2 b2 W3 b3 (⟨(i 1).val, (i 1).isLt⟩ : Fin 256)

theorem rowsPooled_ix2 {P : Nat} (z ninf : EReal) (X : (⟨3, ![P, 32, 67]⟩ : Shape).Idx → EReal)
    (W1 b1 W2 b2 W3 b3) (p : Fin P) (o : Fin 256) :
    rowsPooled z ninf X W1 b1 W2 b2 W3 b3 (ix2 p o)
      = nbrMax ninf fun k => mlp z (fun c => X (ix3 p k c)) W1 b1 W2 b2 W3 b3 o := rfl

theorem pooled_ix3 (z ninf : EReal) (X : (⟨4, ![8, 2048, 32, 67]⟩ : Shape).Idx → EReal)
    (W1 b1 W2 b2 W3 b3) (b : Fin 8) (o : Fin 256) (m : Fin 2048) :
    pooled z ninf X W1 b1 W2 b2 W3 b3 (ix3 b o m)
      = nbrMax ninf fun k => mlp z (fun c => X (ix4 b m k c)) W1 b1 W2 b2 W3 b3 o := rfl

/-- Splitting the merged rows again: if row `b · 2048 + m` of `X2` is the points of `(b, m)` in `X`, then the
    merged-row result at that row is the result at `(b, ·, m)`. -/
theorem rowsPooled_merge (z ninf : EReal) (X : (⟨4, ![8, 2048, 32, 67]⟩ : Shape).Idx → EReal)
    (X2 : (⟨3, ![16384, 32, 67]⟩ : Shape).Idx → EReal) (W1 b1 W2 b2 W3 b3) (b : Fin 8) (o : Fin 256) (m : Fin 2048)
    (p : Fin 16384) (hX : ∀ (k : Fin 32) (c : Fin 67), X2 (ix3 p k c) = X (ix4 b m k c)) :
    rowsPooled z ninf X2 W1 b1 W2 b2 W3 b3 (ix2 p o) = pooled z ninf X W1 b1 W2 b2 W3 b3 (ix3 b o m) := by
  rw [rowsPooled_ix2, pooled_ix3]
  exact congrArg (nbrMax ninf) (funext fun k => congrArg (fun x => mlp z x W1 b1 W2 b2 W3 b3 o) (funext fun c => hX k c))

end Cert.PointConv

end
-- ==== Proof.LibPoolForms.lean ====
/-
  A maximum taken along an inner axis, read at an index by coordinates, over the extended reals.

  * A float `multi_reduction <maximumf>` of an array `[a, b, c]` along its middle axis, from an accumulator word:
    at `(r, o)` it is the fold of `max`, from the word's value, of the entries `(r, k, o)` over `k : Fin b`.
  * A one-operand host reduction with `max` as its body of an array `[a, b, c, d]` along axis 2: at `(i, j, o)` it is
    the fold of `max`, from the initial value's element, of the entries `(i, j, k, o)` over `k : Fin c`.
  Both rest on the fact that `max` commutes and associates, so the order in which a reduction visits the axis is
  immaterial, and on the index with the reduced coordinate put back being the evident tuple.
-/
import Idealize.ShloMosaic.PureOps.Ideal
import Idealize.ShloMosaic.PureOps.Ideal.Laws
import Idealize.ShloMosaic.PureOps.Reduce
import Idealize.ShloMosaic.Lib.ValueIdx

noncomputable section

namespace Cert.PointConv

open Idealize.ShloMosaic Idealize.ShloMosaic.ValueIdx

/-- Putting the middle coordinate back into `(r, o)` gives `(r, k, o)`. -/
theorem lift_mid {a b c : Nat} (h : (⟨3, ![a, b, c]⟩ : Shape).Reduces [1] ⟨2, ![a, c]⟩) (r : Fin a) (o : Fin c) (k : Fin b) :
    h.lift (ix2 r o) k = ix3 r k o := by
  funext x
  apply Fin.ext
  match x with
  | ⟨0, _⟩ => rfl
  | ⟨1, _⟩ => rfl
  | ⟨2, _⟩ => rfl

/-- A float maximum along the middle axis of `[a, b, c]`, at `(r, o)`. -/
theorem multiReduction_max_mid {a b c : Nat} {φ : FTy} (src : FVec Ideal (⟨3, ![a, b, c]⟩ : Shape) φ) (acc : BitVec φ.bits)
    (h : (⟨3, ![a, b, c]⟩ : Shape).Reduces [1] ⟨2, ![a, c]⟩) (hφ : FKind.Formats φ)
    (hacc : acc = FKind.maximumf.neutral φ hφ) (r : Fin a) (o : Fin c) :
    multiReduction .maximumf [1] (⟨2, ![a, c]⟩ : Shape) src acc h hφ hacc (ix2 r o)
      = (Finset.univ : Finset (Fin b)).fold max (Ideal.ofBits φ acc) (fun k => src (ix3 r k o)) := by
  refine (Ideal.multiReduction_maximumf_single src acc h hφ hacc (ix2 r o)).trans ?_
  show (Finset.univ : Finset (Fin b)).fold max (Ideal.ofBits φ acc) (fun k => src (h.lift (ix2 r o) k)) = _
  exact congrArg (fun f => (Finset.univ : Finset (Fin b)).fold max (Ideal.ofBits φ acc) f)
    (funext fun k => congrArg src (lift_mid h r o k))

/-- Putting the coordinate of axis 2 back into `(i, j, o)` gives `(i, j, k, o)`. -/
theorem lift_axis2 {a b c d : Nat} (h : (⟨4, ![a, b, c, d]⟩ : Shape).Reduces [2] ⟨3, ![a, b, d]⟩)
    (i : Fin a) (j : Fin b) (o : Fin d) (k : Fin c) : h.lift (ix3 i j o) k = ix4 i j k o := by
  funext x
  apply Fin.ext
  match x with
  | ⟨0, _⟩ => rfl
  | ⟨1, _⟩ => rfl
  | ⟨2, _⟩ => rfl
  | ⟨3, _⟩ => rfl

/-- A host maximum along axis 2 of `[a, b, c, d]`, at `(i, j, o)`. -/
theorem hostReduce_max_axis2 {a b c d : Nat} {u : Shape} (x : (⟨4, ![a, b, c, d]⟩ : Shape).Idx → EReal) (init : u.Idx → EReal)
    (h' : (⟨4, ![a, b, c, d]⟩ : Shape).ReducesTo [2] ⟨3, ![a, b, d]⟩)
    (h : (⟨4, ![a, b, c, d]⟩ : Shape).Reduces [2] ⟨3, ![a, b, d]⟩) (hu : 0 < u.numel)
    (i : Fin a) (j : Fin b) (o : Fin d) :
    Host.reduce (FloatOps.maximumf (F := Ideal) (φ := .f32)) x init h' hu (ix3 i j o)
      = (Finset.univ : Finset (Fin c)).fold max (init (Shape.Idx.first hu)) (fun k => x (ix4 i j k o)) := by
  refine (Host.reduce_eq_fold_single (FloatOps.maximumf (F := Ideal) (φ := .f32)) x init h' h hu (ix3 i j o)).trans ?_
  show (Finset.univ : Finset (Fin c)).fold max (init (Shape.Idx.first hu)) (fun k => x (h.lift (ix3 i j o) k)) = _
  exact congrArg (fun f => (Finset.univ : Finset (Fin c)).fold max (init (Shape.Idx.first hu)) f)
    (funext fun k => congrArg x (lift_axis2 h i j o k))

end Cert.PointConv

end
-- ==== Proof.RefValue.lean ====
/-
  The reference's result, read entry by entry.

  The reference forms the same feature array `X : [8, 2048, 32, 67]` (its stage `val_main_v25`, which this file never
  opens), applies the three dense layers to it with the three leading axes carried along — a product contracting the
  last axis, the bias copied over the leading axes, `max` with the zero splat —, takes the maximum over the
  neighbour axis from the minus-infinity word, and swaps the last two axes. Read at `(b, o, m)` that is the pooled
  perceptron of anchor `(b, m)`'s points at channel `o`: `pooled` of `X`.
-/
import proofs.«126753_j20684562497678_1_alg».proof.Proof.Gen.ReferenceIdeal.Read
import proofs.«126753_j20684562497678_1_alg».proof.Proof.PointMlp
import proofs.«126753_j20684562497678_1_alg».proof.Proof.LibPoolForms

noncomputable section

namespace Cert.ReferenceIdeal.RefValue

open Cert.ReferenceIdeal Cert.ReferenceIdeal.Read Cert.PointConv Idealize.ShloMosaic Idealize.ShloMosaic.ValueIdx

/-! ## The generated index maps at a point `(b, m, k, ·)` -/

theorem lidx26 (b : Fin 8) (m : Fin 2048) (k : Fin 32) (o : Fin 128) (c : Fin 67) :
    lidx_main_v26 (ix4 b m k o) c = ix4 b m k c :=
  funext fun a => Fin.ext (by match a with | ⟨0, _⟩ => rfl | ⟨1, _⟩ => rfl | ⟨2, _⟩ => rfl | ⟨3, _⟩ => rfl)
theorem ridx26 (b : Fin 8) (m : Fin 2048) (k : Fin 32) (o : Fin 128) (c : Fin 67) :
    ridx_main_v26 (ix4 b m k o) c = ix2 c o :=
  funext fun a => Fin.ext (by match a with | ⟨0, _⟩ => rfl | ⟨1, _⟩ => rfl)
theorem bias28 (b : Fin 8) (m : Fin 2048) (k : Fin 32) (o : Fin 128) :
    idx_main_v27 (idx_main_v28 (ix4 b m k o)) = ix1 o :=
  funext fun a => Fin.ext (by match a with | ⟨0, _⟩ => rfl)

theorem lidx31 (b : Fin 8) (m : Fin 2048) (k : Fin 32) (o : Fin 128) (c : Fin 128) :
    lidx_main_v31 (ix4 b m k o) c = ix4 b m k c :=
  funext fun a => Fin.ext (by match a with | ⟨0, _⟩ => rfl | ⟨1, _⟩ => rfl | ⟨2, _⟩ => rfl | ⟨3, _⟩ => rfl)
theorem ridx31 (b : Fin 8) (m : Fin 2048) (k : Fin 32) (o : Fin 128) (c : Fin 128) :
    ridx_main_v31 (ix4 b m k o) c = ix2 c o :=
  funext fun a => Fin.ext (by match a with | ⟨0, _⟩ => rfl | ⟨1, _⟩ => rfl)
theorem bias33 (b : Fin 8) (m : Fin 2048) (k : Fin 32) (o : Fin 128) :
    idx_main_v32 (idx_main_v33 (ix4 b m k o)) = ix1 o :=
  funext fun a => Fin.ext (by match a with | ⟨0, _⟩ => rfl)

theorem lidx36 (b : Fin 8) (m : Fin 2048) (k : Fin 32) (o : Fin 256) (c : Fin 128) :
    lidx_main_v36 (ix4 b m k o) c = ix4 b m k c :=
  funext fun a => Fin.ext (by match a with | ⟨0, _⟩ => rfl | ⟨1, _⟩ => rfl | ⟨2, _⟩ => rfl | ⟨3, _⟩ => rfl)
theorem ridx36 (b : Fin 8) (m : Fin 2048) (k : Fin 32) (o : Fin 256) (c : Fin 128) :
    ridx_main_v36 (ix4 b m k o) c = ix2 c o :=
  funext fun a => Fin.ext (by match a with | ⟨0, _⟩ => rfl | ⟨1, _⟩ => rfl)
theorem bias38 (b : Fin 8) (m : Fin 2048) (k : Fin 32) (o : Fin 256) :
    idx_main_v37 (idx_main_v38 (ix4 b m k o)) = ix1 o :=
  funext fun a => Fin.ext (by match a with | ⟨0, _⟩ => rfl)

theorem idx42 (b : Fin 8) (o : Fin 256) (m : Fin 2048) : idx_main_v42 (ix3 b o m) = ix3 b m o :=
  funext fun a => Fin.ext (by match a with | ⟨0, _⟩ => rfl | ⟨1, _⟩ => rfl | ⟨2, _⟩ => rfl)

/-! ## The three layers at a point -/

variable (x0 : (⟨S8x8192x3, .f32⟩ : BufTy).Contents (Elt Ideal)) (x1 : (⟨S8x64x8192, .f32⟩ : BufTy).Contents (Elt Ideal)) (x2 : (⟨S8x2048x32, .i32⟩ : BufTy).Contents (Elt Ideal)) (x3 : (⟨S8x2048, .i32⟩ : BufTy).Contents (Elt Ideal))
    (x4 : (⟨S67x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (x8 : (⟨S128x256, .f32⟩ : BufTy).Contents (Elt Ideal)) (x9 : (⟨S256, .f32⟩ : BufTy).Contents (Elt Ideal))

/-- The first layer at point `(b, m, k)`: the dense layer of that point's feature row. -/
theorem layer1_apply (b : Fin 8) (m : Fin 2048) (k : Fin 32) (o : Fin 128) :
    val_main_v30 (F := Ideal) x0 x1 x2 x3 x4 x5 (ix4 b m k o)
      = dense (Ideal.ofBits .f32 0x00000000#32) (fun c => val_main_v25 (F := Ideal) x0 x1 x2 x3 (ix4 b m k c)) x4 x5 o := by
  rw [val_main_v30_apply, val_main_v29_apply, val_main_v26_apply, val_main_v28_apply, val_main_v27_apply,
    val_main_call0_v0_apply, val_main_call0_cst_apply]
  simp only [lidx26, ridx26, bias28]
  rfl

/-- The second layer at point `(b, m, k)`. -/
theorem layer2_apply (b : Fin 8) (m : Fin 2048) (k : Fin 32) (o : Fin 128) :
    val_main_v35 (F := Ideal) x0 x1 x2 x3 x4 x5 x6 x7 (ix4 b m k o)
      = dense (Ideal.ofBits .f32 0x00000000#32) (fun c => val_main_v30 (F := Ideal) x0 x1 x2 x3 x4 x5 (ix4 b m k c)) x6 x7 o := by
  rw [val_main_v35_apply, val_main_v34_apply, val_main_v31_apply, val_main_v33_apply, val_main_v32_apply,
    val_main_call1_v0_apply, val_main_call1_cst_apply]
  simp only [lidx31, ridx31, bias33]
  rfl

/-- The third layer at point `(b, m, k)`. -/
theorem layer3_apply (b : Fin 8) (m : Fin 2048) (k : Fin 32) (o : Fin 256) :
    val_main_v40 (F := Ideal) x0 x1 x2 x3 x4 x5 x6 x7 x8 x9 (ix4 b m k o)
      = dense (Ideal.ofBits .f32 0x00000000#32) (fun c => val_main_v35 (F := Ideal) x0 x1 x2 x3 x4 x5 x6 x7 (ix4 b m k c)) x8 x9 o := by
  rw [val_main_v40_apply, val_main_v39_apply, val_main_v36_apply, val_main_v38_apply, val_main_v37_apply,
    val_main_call2_v0_apply, val_main_call2_cst_apply]
  simp only [lidx36, ridx36, bias38]
  rfl

/-- The three layers composed: the perceptron of the point's feature row. -/
theorem mlp_apply (b : Fin 8) (m : Fin 2048) (k : Fin 32) (o : Fin 256) :
    val_main_v40 (F := Ideal) x0 x1 x2 x3 x4 x5 x6 x7 x8 x9 (ix4 b m k o)
      = mlp (Ideal.ofBits .f32 0x00000000#32) (fun c => val_main_v25 (F := Ideal) x0 x1 x2 x3 (ix4 b m k c)) x4 x5 x6 x7 x8 x9 o := by
  unfold mlp
  rw [layer3_apply]
  refine congrArg (fun f => dense (Ideal.ofBits .f32 0x00000000#32) f x8 x9 o) (funext fun j => ?_)
  rw [layer2_apply]
  exact congrArg (fun f => dense (Ideal.ofBits .f32 0x00000000#32) f x6 x7 j) (funext fun i => layer1_apply x0 x1 x2 x3 x4 x5 b m k i)

/-! ## The result -/

/-- The reference's result is `pooled` of its feature array. -/
theorem result_eq :
    val_main_v42 (F := Ideal) x0 x1 x2 x3 x4 x5 x6 x7 x8 x9
      = pooled (Ideal.ofBits .f32 0x00000000#32) (Ideal.ofBits .f32 0xFF800000#32) (val_main_v25 (F := Ideal) x0 x1 x2 x3)
          x4 x5 x6 x7 x8 x9 := by
  funext i
  obtain ⟨b, o, m, rfl⟩ : ∃ (b : Fin 8) (o : Fin 256) (m : Fin 2048), i = ix3 b o m := ⟨i 0, i 1, i 2, eq_ix3 i⟩
  rw [pooled_ix3, val_main_v42_apply, idx42]
  unfold val_main_v41
  refine (hostReduce_max_axis2 _ _ _ (by decide) _ b m o).trans ?_
  unfold nbrMax
  exact congrArg (fun f => (Finset.univ : Finset (Fin 32)).fold max (Ideal.ofBits .f32 0xFF800000#32) f)
    (funext fun k => mlp_apply x0 x1 x2 x3 x4 x5 x6 x7 x8 x9 b m k o)

end Cert.ReferenceIdeal.RefValue

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibMergeForms.lean ====
/-
  Reshapes that merge or split the two leading axes, and a bias row copied down the rows, read at an index by
  coordinates.

  A reshape keeps the row-major position of every entry. Merging the leading axes `a, b` of an array into one axis
  of extent `a · b` sends the entry `(r, k, …)` to row `r · b + k`; splitting undoes it. A vector `[k]` laid out as
  one row `[1, k]` and copied to every row of `[R, k]` reads, at `(q, o)`, the vector at `o`.
-/
import Idealize.ShloMosaic.Lib.Pipeline.Value
import Idealize.ShloMosaic.Lib.ValueIdx
import Idealize.ShloMosaic.Lib.ValueLayout

noncomputable section

namespace Cert.PointConv

open Idealize.ShloMosaic Idealize.ShloMosaic.ValueIdx

variable {α : Type}

/-- `[a, b, c]` reshaped to `[m, c]` (`m = a · b`): row `r · b + k` at column `o` is the entry `(r, k, o)`. -/
theorem shapeCast_abc_mc_apply {a b c m : Nat} (x : (⟨3, ![a, b, c]⟩ : Shape).Idx → α)
    (h : (⟨3, ![a, b, c]⟩ : Shape).ShapeCasts ⟨2, ![m, c]⟩) (r : Fin a) (k : Fin b) (o : Fin c) (q : Fin m)
    (hq : q.val = r.val * b + k.val) : shapeCast ⟨2, ![m, c]⟩ x h (ix2 q o) = x (ix3 r k o) :=
  shapeCast_apply x h _ _ (by
    rw [Shape.rowMajor_val_three, Shape.rowMajor_val_two]
    show (r.val * b + k.val) * c + o.val = q.val * c + o.val
    rw [hq])

/-- `[m, c]` reshaped to `[a, b, c]` (`m = a · b`): the entry `(r, k, o)` is row `r · b + k` at column `o`. -/
theorem shapeCast_mc_abc_apply {a b c m : Nat} (x : (⟨2, ![m, c]⟩ : Shape).Idx → α)
    (h : (⟨2, ![m, c]⟩ : Shape).ShapeCasts ⟨3, ![a, b, c]⟩) (r : Fin a) (k : Fin b) (o : Fin c) (q : Fin m)
    (hq : q.val = r.val * b + k.val) : shapeCast ⟨3, ![a, b, c]⟩ x h (ix3 r k o) = x (ix2 q o) :=
  shapeCast_apply x h _ _ (by
    rw [Shape.rowMajor_val_three, Shape.rowMajor_val_two]
    show q.val * c + o.val = (r.val * b + k.val) * c + o.val
    rw [hq])

/-- `[a, b, c, d]` reshaped to `[m, c, d]` (`m = a · b`): the entry `(r · b + k, i, j)` is the entry `(r, k, i, j)`. -/
theorem shapeCast_abcd_mcd_apply {a b c d m : Nat} (x : (⟨4, ![a, b, c, d]⟩ : Shape).Idx → α)
    (h : (⟨4, ![a, b, c, d]⟩ : Shape).ShapeCasts ⟨3, ![m, c, d]⟩) (r : Fin a) (k : Fin b) (i : Fin c) (j : Fin d) (q : Fin m)
    (hq : q.val = r.val * b + k.val) : shapeCast ⟨3, ![m, c, d]⟩ x h (ix3 q i j) = x (ix4 r k i j) :=
  shapeCast_apply x h _ _ (by
    rw [Shape.rowMajor_val_four, Shape.rowMajor_val_three]
    show ((r.val * b + k.val) * c + i.val) * d + j.val = (q.val * c + i.val) * d + j.val
    rw [hq])

/-- A vector `[k]` laid out as the row `[1, k]` and copied to every row of `[R, k]`: at `(q, o)` it is the vector at `o`. -/
theorem rowBias_apply {R k : Nat} (b : (⟨1, ![k]⟩ : Shape).Idx → α) (h1 : (⟨1, ![k]⟩ : Shape).ShapeCasts ⟨2, ![1, k]⟩)
    (h2 : (⟨2, ![1, k]⟩ : Shape).Broadcasts ⟨2, ![R, k]⟩) (q : Fin R) (o : Fin k) :
    broadcastTo ⟨2, ![R, k]⟩ (shapeCast ⟨2, ![1, k]⟩ b h1) h2 (ix2 q o) = b (ix1 o) :=
  (broadcastTo_1b_ab_apply _ h2 q o).trans (shapeCast_a_1a_apply b h1 0 o)

end Cert.PointConv

end
-- ==== Proof.KernelBlock.lean ====
/-
  What one grid point of the kernel stores, read entry by entry.

  The body loads a block of 256 merged rows, `x0 : [256, 32, 67]`, and the three weight matrices and bias vectors
  whole. It merges the block's two leading axes into 8192 point rows (point `r · 32 + k` is neighbour `k` of row
  `r`), runs the three dense layers on all 8192 rows at once — each a matrix product into the zero matrix, plus the
  bias row copied down, then `max` with the zero splat; the roundings to the narrow float format on the way into
  each product are the identity on extended reals —, splits the rows again into `[256, 32, 256]` and takes the
  maximum over the 32 neighbours from the minus-infinity word. So the stored block at `(r, o)` is the pooled
  perceptron of row `r`'s 32 points at channel `o`: `rowsPooled` of the loaded block.
-/
import proofs.«126753_j20684562497678_1_alg».proof.Proof.Gen.KernelIdeal.Skeleton
import proofs.«126753_j20684562497678_1_alg».proof.Proof.PointMlp
import proofs.«126753_j20684562497678_1_alg».proof.Proof.LibPlainMatmul
import proofs.«126753_j20684562497678_1_alg».proof.Proof.LibPoolForms
import proofs.«126753_j20684562497678_1_alg».proof.Proof.LibMergeForms

noncomputable section

namespace Cert.KernelIdeal.Block

open Cert.KernelIdeal Cert.KernelIdeal.Gen Cert.PointConv Idealize.ShloMosaic Idealize.ShloMosaic.ValueIdx

/-- One dense layer as the body computes it on all rows at once, read at row `q` and column `o`: the product into the
    zero matrix is the sum over the shared axis, the copied bias row is the bias at `o`, and the zero splat is the
    zero word's value. -/
theorem layer_apply {R n k : Nat} (wf) (A : FVec Ideal (⟨2, ![R, n]⟩ : Shape) .bf16) (W : FVec Ideal (⟨2, ![n, k]⟩ : Shape) .bf16)
    (b : FVec Ideal (⟨1, ![k]⟩ : Shape) .f32) (h1 : (⟨1, ![k]⟩ : Shape).ShapeCasts ⟨2, ![1, k]⟩)
    (h2 : (⟨2, ![1, k]⟩ : Shape).Broadcasts ⟨2, ![R, k]⟩) (zw : BitVec 32) (q : Fin R) (o : Fin k) :
    maximumf (addf (matmul (plainDims R n k wf) none A W (constant (F := Ideal) (⟨2, ![R, k]⟩ : Shape) .f32 0x00000000#32))
        (broadcastTo (⟨2, ![R, k]⟩ : Shape) (shapeCast (⟨2, ![1, k]⟩ : Shape) b h1) h2))
      (broadcast (⟨2, ![R, k]⟩ : Shape) (Scalar.ofBits (F := Ideal) .f32 zw)) (ix2 q o)
      = dense (Ideal.ofBits .f32 zw) (fun c => A (ix2 q c)) W b o := by
  show max (FloatOps.matmul (plainDims R n k wf) none A W (constant (F := Ideal) (⟨2, ![R, k]⟩ : Shape) .f32 0x00000000#32) (ix2 q o)
      + broadcastTo (⟨2, ![R, k]⟩ : Shape) (shapeCast (⟨2, ![1, k]⟩ : Shape) b h1) h2 (ix2 q o)) (Ideal.ofBits .f32 zw)
    = max ((∑ c : Fin n, A (ix2 q c) * W (ix2 c o)) + b (ix1 o)) (Ideal.ofBits .f32 zw)
  rw [plainMatmul_zero_apply, rowBias_apply]

/-- The stored block, entry by entry, is the pooled perceptron of the loaded block's rows. -/
theorem payload_apply (x0 : Vec Ideal S256x32x67 .f32) (w1 : Vec Ideal S67x128 .f32) (b1 : Vec Ideal S128 .f32)
    (w2 : Vec Ideal S128x128 .f32) (b2 : Vec Ideal S128 .f32) (w3 : Vec Ideal S128x256 .f32) (b3 : Vec Ideal S256 .f32)
    (r o : Fin 256) :
    k0_pay1 (F := Ideal) x0 w1 b1 w2 b2 w3 b3 (ix2 r o)
      = rowsPooled (Ideal.ofBits .f32 0x00000000#32) (Ideal.ofBits .f32 0xFF800000#32) x0 w1 b1 w2 b2 w3 b3 (ix2 r o) := by
  rw [rowsPooled_ix2]
  unfold k0_pay1
  refine (multiReduction_max_mid _ _ _ _ _ r o).trans ?_
  unfold nbrMax
  refine congrArg (fun f => (Finset.univ : Finset (Fin 32)).fold max (Ideal.ofBits .f32 0xFF800000#32) f) (funext fun k => ?_)
  have hq : r.val * 32 + k.val < 8192 := by have := r.isLt; have := k.isLt; omega
  refine (shapeCast_mc_abc_apply _ _ r k o (⟨r.val * 32 + k.val, hq⟩ : Fin 8192) rfl).trans ?_
  unfold mlp
  refine (layer_apply _ _ _ _ _ _ _ (⟨r.val * 32 + k.val, hq⟩ : Fin 8192) o).trans ?_
  refine congrArg (fun f => dense (Ideal.ofBits .f32 0x00000000#32) f w3 b3 o) (funext fun j => ?_)
  refine (layer_apply _ _ _ _ _ _ _ (⟨r.val * 32 + k.val, hq⟩ : Fin 8192) j).trans ?_
  refine congrArg (fun f => dense (Ideal.ofBits .f32 0x00000000#32) f w2 b2 j) (funext fun i => ?_)
  refine (layer_apply _ _ _ _ _ _ _ (⟨r.val * 32 + k.val, hq⟩ : Fin 8192) i).trans ?_
  refine congrArg (fun f => dense (Ideal.ofBits .f32 0x00000000#32) f w1 b1 i) (funext fun c => ?_)
  show shapeCast S8192x67 (shapeCast S256x32x67 x0 shapeCasts_S256x32x67_S256x32x67) shapeCasts_S256x32x67_S8192x67
      (ix2 (⟨r.val * 32 + k.val, hq⟩ : Fin 8192) c) = x0 (ix3 r k c)
  rw [shapeCast_self]
  exact shapeCast_abc_mc_apply x0 _ r k c (⟨r.val * 32 + k.val, hq⟩ : Fin 8192) rfl

/-- The same as an equation of blocks. -/
theorem payload_eq (x0 : Vec Ideal S256x32x67 .f32) (w1 : Vec Ideal S67x128 .f32) (b1 : Vec Ideal S128 .f32)
    (w2 : Vec Ideal S128x128 .f32) (b2 : Vec Ideal S128 .f32) (w3 : Vec Ideal S128x256 .f32) (b3 : Vec Ideal S256 .f32) :
    k0_pay1 (F := Ideal) x0 w1 b1 w2 b2 w3 b3
      = rowsPooled (Ideal.ofBits .f32 0x00000000#32) (Ideal.ofBits .f32 0xFF800000#32) x0 w1 b1 w2 b2 w3 b3 := by
  funext j
  obtain ⟨r, o, rfl⟩ : ∃ (r o : Fin 256), j = ix2 r o := ⟨j 0, j 1, eq_ix2 j⟩
  exact payload_apply x0 w1 b1 w2 b2 w3 b3 r o

end Cert.KernelIdeal.Block

end
-- ==== Proof.KernelArray.lean ====
/-
  From the blocks the grid points write back to the kernel's whole output array.

  The grid has 64 points; point `t` reads rows `256 · t … 256 · t + 255` of the merged feature array
  `[16384, 32, 67]` and the weights and biases whole, and writes back rows `256 · t … 256 · t + 255` of the output
  `[16384, 256]`. Since the body's block is `rowsPooled` of the rows it loaded, and `rowsPooled` treats every row by
  itself, what point `t` writes back is block `t` of ONE whole-array function: `rowsPooled` of the whole feature
  array as the region finds it (`outRows`). Row `p` is covered by point `p / 256`, so after the last point the
  output array holds `outRows` everywhere.
-/
import proofs.«126753_j20684562497678_1_alg».proof.Proof.Gen.KernelIdeal.Frame
import proofs.«126753_j20684562497678_1_alg».proof.Proof.KernelBlock
import Idealize.ShloMosaic.Lib.Pipeline.Value

set_option maxRecDepth 16384

noncomputable section

namespace Cert.PointConv

open Idealize.ShloMosaic Idealize.ShloMosaic.ValueIdx

/-- `rowsPooled` looks at one row only: two arrangements that agree on the row an index names, with the same
    weights, give the same value at indices with the same channel. -/
theorem rowsPooled_congr {P Q : Nat} (z ninf : EReal) (X : (⟨3, ![P, 32, 67]⟩ : Shape).Idx → EReal)
    (X' : (⟨3, ![Q, 32, 67]⟩ : Shape).Idx → EReal) (W1 b1 W2 b2 W3 b3)
    (j : (⟨2, ![P, 256]⟩ : Shape).Idx) (j' : (⟨2, ![Q, 256]⟩ : Shape).Idx) (h1 : (j 1).val = (j' 1).val)
    (hX : ∀ (k : Fin 32) (c : Fin 67), X (ix3 (⟨(j 0).val, (j 0).isLt⟩ : Fin P) k c) = X' (ix3 (⟨(j' 0).val, (j' 0).isLt⟩ : Fin Q) k c)) :
    rowsPooled z ninf X W1 b1 W2 b2 W3 b3 j = rowsPooled z ninf X' W1 b1 W2 b2 W3 b3 j' := by
  unfold rowsPooled
  have ho : (⟨(j 1).val, (j 1).isLt⟩ : Fin 256) = ⟨(j' 1).val, (j' 1).isLt⟩ := Fin.ext h1
  rw [ho]
  exact congrArg (nbrMax ninf) (funext fun k =>
    congrArg (fun x => mlp z x W1 b1 W2 b2 W3 b3 (⟨(j' 1).val, (j' 1).isLt⟩ : Fin 256)) (funext fun c => hX k c))

end Cert.PointConv

namespace Cert.KernelIdeal.Array

open Cert.KernelIdeal Cert.KernelIdeal.Gen Cert.KernelIdeal.Block Cert.PointConv
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The whole output array as one function of the arrays the region finds: the pooled perceptron of every merged row. -/
def outRows (c : Dev nD) : S16384x256.Idx → EReal :=
  rowsPooled (Ideal.ofBits .f32 0x00000000#32) (Ideal.ofBits .f32 0xFF800000#32)
    (V m c main_v26) (V m c main_arg4) (V m c main_arg5) (V m c main_arg6) (V m c main_arg7) (V m c main_arg8) (V m c main_arg9)

/-- The printed index maps over the grid: the feature block and the output block move with the point along the rows;
    every other block index is zero. -/
theorem idx_facts : ∀ t : Fin cfg0.N,
    win0_0.index t (0 : Fin 3) = t.val ∧ win0_0.index t (1 : Fin 3) = 0 ∧ win0_0.index t (2 : Fin 3) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-! ## The weight and bias blocks are the whole arrays -/

theorem blk1_eq (c : Dev nD) (t : Fin cfg0.N) : (iblk m c 1 t : S67x128.Idx → EReal) = V m c main_arg4 := by
  obtain ⟨-, -, -, -, -, e0, e1, -⟩ := idx_facts t
  funext y
  show V m c main_arg4 (((cfg0.win 1).blk t).view.emb y) = V m c main_arg4 y
  refine congrArg (V m c main_arg4) (funext fun a => Fin.ext ?_)
  match a with
  | ⟨0, _⟩ => show win0_1.index t (0 : Fin 2) * 67 + 1 * (y 0).val = (y 0).val; omega
  | ⟨1, _⟩ => show win0_1.index t (1 : Fin 2) * 128 + 1 * (y 1).val = (y 1).val; omega

theorem blk2_eq (c : Dev nD) (t : Fin cfg0.N) : (iblk m c 2 t : S128.Idx → EReal) = V m c main_arg5 := by
  obtain ⟨-, -, -, -, -, -, -, e0, -⟩ := idx_facts t
  funext y
  show V m c main_arg5 (((cfg0.win 2).blk t).view.emb y) = V m c main_arg5 y
  refine congrArg (V m c main_arg5) (funext fun a => Fin.ext ?_)
  match a with
  | ⟨0, _⟩ => show win0_2.index t (0 : Fin 1) * 128 + 1 * (y 0).val = (y 0).val; omega

theorem blk3_eq (c : Dev nD) (t : Fin cfg0.N) : (iblk m c 3 t : S128x128.Idx → EReal) = V m c main_arg6 := by
  obtain ⟨-, -, -, -, -, -, -, -, e0, e1, -⟩ := idx_facts t
  funext y
  show V m c main_arg6 (((cfg0.win 3).blk t).view.emb y) = V m c main_arg6 y
  refine congrArg (V m c main_arg6) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blk4_eq (c : Dev nD) (t : Fin cfg0.N) : (iblk m c 4 t : S128.Idx → EReal) = V m c main_arg7 := by
  obtain ⟨-, -, -, -, -, -, -, -, -, -, e0, -⟩ := idx_facts t
  funext y
  show V m c main_arg7 (((cfg0.win 4).blk t).view.emb y) = V m c main_arg7 y
  refine congrArg (V m c main_arg7) (funext fun a => Fin.ext ?_)
  match a with
  | ⟨0, _⟩ => show win0_4.index t (0 : Fin 1) * 128 + 1 * (y 0).val = (y 0).val; omega

theorem blk5_eq (c : Dev nD) (t : Fin cfg0.N) : (iblk m c 5 t : S128x256.Idx → EReal) = V m c main_arg8 := by
  obtain ⟨-, -, -, -, -, -, -, -, -, -, -, e0, e1, -⟩ := idx_facts t
  funext y
  show V m c main_arg8 (((cfg0.win 5).blk t).view.emb y) = V m c main_arg8 y
  refine congrArg (V m c main_arg8) (funext fun a => Fin.ext ?_)
  match a with
  | ⟨0, _⟩ => show win0_5.index t (0 : Fin 2) * 128 + 1 * (y 0).val = (y 0).val; omega
  | ⟨1, _⟩ => show win0_5.index t (1 : Fin 2) * 256 + 1 * (y 1).val = (y 1).val; omega

theorem blk6_eq (c : Dev nD) (t : Fin cfg0.N) : (iblk m c 6 t : S256.Idx → EReal) = V m c main_arg9 := by
  obtain ⟨-, -, -, -, -, -, -, -, -, -, -, -, -, e0⟩ := idx_facts t
  funext y
  show V m c main_arg9 (((cfg0.win 6).blk t).view.emb y) = V m c main_arg9 y
  refine congrArg (V m c main_arg9) (funext fun a => Fin.ext ?_)
  match a with
  | ⟨0, _⟩ => show win0_6.index t (0 : Fin 1) * 256 + 1 * (y 0).val = (y 0).val; omega

/-- The feature block at point `t`: its entry `(r, k, c)` is the array's entry at row `256 · t + r`. -/
theorem blk0_apply (c : Dev nD) (t : Fin cfg0.N) (r : Fin 256) (k : Fin 32) (cc : Fin 67) (p : Fin 16384)
    (hp : p.val = t.val * 256 + r.val) :
    (iblk m c 0 t : S256x32x67.Idx → EReal) (ix3 r k cc) = V m c main_v26 (ix3 p k cc) := by
  obtain ⟨e0, e1, e2, -⟩ := idx_facts t
  show V m c main_v26 (((cfg0.win 0).blk t).view.emb (ix3 r k cc)) = V m c main_v26 (ix3 p k cc)
  refine congrArg (V m c main_v26) (funext fun a => Fin.ext ?_)
  match a with
  | ⟨0, _⟩ => show win0_0.index t (0 : Fin 3) * 256 + 1 * r.val = p.val; omega
  | ⟨1, _⟩ => show win0_0.index t (1 : Fin 3) * 32 + 1 * k.val = k.val; omega
  | ⟨2, _⟩ => show win0_0.index t (2 : Fin 3) * 67 + 1 * cc.val = cc.val; omega

/-! ## What a point writes back, and the cover -/

/-- What point `t` writes back is block `t` of `outRows`. -/
theorem flushed_eq (c : Dev nD) (t : Fin cfg0.N) :
    (dats m 0 c).flushed 7 t = ((cfg0.win 7).blk t).view.read (Elt Ideal) (outRows m c) := by
  show (cfg0.win 7).cut (grid0.coords t) ((dats m 0 c).after 7 t) = _
  rw [after0_7]
  unfold out0_7
  rw [View.canon_unit_zero hz2]
  simp only [View.ld_unit_zero (S := S256x32x67) hz3, View.ld_unit_zero (S := S67x128) hz2, View.ld_unit_zero (S := S128) hz1,
    View.ld_unit_zero (S := S128x128) hz2, View.ld_unit_zero (S := S128x256) hz2, View.ld_unit_zero (S := S256) hz1]
  rw [payload_eq, blk1_eq, blk2_eq, blk3_eq, blk4_eq, blk5_eq, blk6_eq]
  obtain ⟨-, -, -, e0, e1, -⟩ := idx_facts t
  funext j
  show rowsPooled _ _ (iblk m c 0 t) (V m c main_arg4) (V m c main_arg5) (V m c main_arg6) (V m c main_arg7) (V m c main_arg8)
      (V m c main_arg9) j = outRows m c (((cfg0.win 7).blk t).view.emb j)
  unfold outRows
  have hj0 : (j 0).val < 256 := (j 0).isLt
  have h0 : ((((cfg0.win 7).blk t).view.emb j) 0).val = t.val * 256 + (j 0).val := by
    show win0_7.index t (0 : Fin 2) * 256 + 1 * (j 0).val = _; omega
  have h1 : ((((cfg0.win 7).blk t).view.emb j) 1).val = (j 1).val := by
    show win0_7.index t (1 : Fin 2) * 256 + 1 * (j 1).val = _; omega
  refine rowsPooled_congr _ _ _ _ _ _ _ _ _ _ j _ h1.symm fun k cc => ?_
  exact blk0_apply m c t ⟨(j 0).val, hj0⟩ k cc _ h0

/-- An index of the output array is in point `t`'s block iff each coordinate is in the block's range on its axis. -/
theorem mem_blk (t : Fin cfg0.N) (i : S16384x256.Idx) :
    i ∈ ((cfg0.win 7).blk t).view.set ↔ ∀ a : Fin 2, win0_7.index t a * S256x256.size a ≤ (i a).val ∧ (i a).val < win0_7.index t a * S256x256.size a + S256x256.size a := by
  show i ∈ ((View.whole main_v27).slice (win0_7.rect t)).set ↔ _
  rw [View.set_slice_whole, Rect.mem_set_unit]
  exact Iff.rfl

/-- Every index of the output array is in some point's block: row `p` in the block of point `p / 256`. -/
theorem cover (i : S16384x256.Idx) : ∃ t : Fin cfg0.N, (cfg0.win 7).flush t = true ∧ i ∈ ((cfg0.win 7).blk t).view.set := by
  have hi0 : (i 0).val < 16384 := (i 0).isLt
  have hi1 : (i 1).val < 256 := (i 1).isLt
  have hN : cfg0.N = 64 := N_0
  refine ⟨⟨(i 0).val / 256, by rw [hN]; omega⟩, flush0_7 _, ?_⟩
  obtain ⟨-, -, -, e0, e1, -⟩ := idx_facts ⟨(i 0).val / 256, by rw [hN]; omega⟩
  rw [mem_blk]
  intro a
  match a with
  | ⟨0, _⟩ =>
    show win0_7.index _ (0 : Fin 2) * 256 ≤ (i 0).val ∧ (i 0).val < win0_7.index _ (0 : Fin 2) * 256 + 256
    rw [e0]; show (i 0).val / 256 * 256 ≤ (i 0).val ∧ (i 0).val < (i 0).val / 256 * 256 + 256; omega
  | ⟨1, _⟩ =>
    show win0_7.index _ (1 : Fin 2) * 256 ≤ (i 1).val ∧ (i 1).val < win0_7.index _ (1 : Fin 2) * 256 + 256
    rw [e1]; omega

/-- After the last point the output array holds `outRows`. -/
theorem final (c : Dev nD) : (dats m 0 c).arrAt 7 cfg0.N = outRows m c :=
  (dats m 0 c).arrAt_eq_of_cover 7 (outRows m c) (fun t _ => flushed_eq m c t) cover

end Cert.KernelIdeal.Array

end
-- ==== Proof.KernelResult.lean ====
/-
  The kernel program's result, as one function of its arguments.

  Before the grid runs, the program forms the feature array `X : [8, 2048, 32, 67]` by the same host operations as the
  reference — so `X` is named here by the reference's stage `val_main_v25` of the kernel program's own arguments and
  never opened — and merges its two leading axes: row `b · 2048 + m` of what the grid reads is anchor `(b, m)`.
  After the grid, the output rows `[16384, 256]` are split back into `[8, 2048, 256]` and the last two axes are swapped.
  Reading the result at `(b, o, m)` therefore gives the output row `b · 2048 + m` at channel `o`, which is the pooled
  perceptron of the points of anchor `(b, m)`: `pooled` of `X`, the function the reference computes.
-/
import proofs.«126753_j20684562497678_1_alg».proof.Proof.Gen.KernelIdeal.Frame
import proofs.«126753_j20684562497678_1_alg».proof.Proof.Gen.ReferenceIdeal.Read
import proofs.«126753_j20684562497678_1_alg».proof.Proof.KernelArray
import proofs.«126753_j20684562497678_1_alg».proof.Proof.LibMergeForms
import Idealize.ShloMosaic.Lib.StableHlo.Run
import Idealize.ShloMosaic.Lib.ValueLayout
import Idealize.ShloMosaic.Lib.Pipeline.Value

set_option maxRecDepth 16384

noncomputable section

namespace Cert.KernelIdeal.Result

open Cert.KernelIdeal Cert.KernelIdeal.Gen Cert.KernelIdeal.Array Cert.PointConv
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-- The feature array `[8, 2048, 32, 67]` of the program's arguments on core `c`. -/
abbrev feat (c : Dev nD) : S8x2048x32x67.Idx → EReal :=
  Cert.ReferenceIdeal.Read.val_main_v25 (F := Ideal) (m ((c : Thread nD τ).loc main_arg0)) (m ((c : Thread nD τ).loc main_arg1))
    (m ((c : Thread nD τ).loc main_arg2)) (m ((c : Thread nD τ).loc main_arg3))

set_option maxHeartbeats 2000000 in
/-- What the grid reads is the feature array with its two leading axes merged. -/
theorem V_v26 (c : Dev nD) :
    (V m c main_v26 : S16384x32x67.Idx → EReal) = shapeCast S16384x32x67 (feat m c) shapeCasts_S8x2048x32x67_S16384x32x67 := by
  show StableHlo.after hostOps0 (fun b => m (c, b)) (Proc.devRef .tc main_v26) = _
  after_results_simp <;> rfl

/-- The program's result buffer after the two host operations that follow the grid. -/
theorem tail_eq (c : Dev nD) :
    (Pipeline.afterTail₀ cfgs (dats m) 0 (V0 m) [hostOps1] c main_v29 : S8x256x2048.Idx → EReal)
      = transpose S8x256x2048 [0, 2, 1] (shapeCast S8x2048x256 (outRows m c) shapeCasts_S16384x256_S8x2048x256)
          transposes_S8x2048x256_S8x256x2048_0_2_1 := by
  unfold Pipeline.afterTail₀
  show StableHlo.after hostOps1 _ (Proc.devRef .tc main_v29) = _
  after_results
  have e : Pipeline.withArrays (cfgs 0).spec c (V0 m c) (fun w => (dats m 0 c).arrAt w (cfgs 0).N) (Proc.devRef .tc main_v27)
      = outRows m c :=
    (Pipeline.withArrays_arr spec0 launch0.win.arr_inj c _ _ 7).trans (final m c)
  rw [e]
  rfl

/-- The result, entry by entry, is the pooled perceptron of the feature array. -/
theorem result_eq (c : Dev nD) :
    (Pipeline.afterTail₀ cfgs (dats m) 0 (V0 m) [hostOps1] c main_v29 : S8x256x2048.Idx → EReal)
      = pooled (Ideal.ofBits .f32 0x00000000#32) (Ideal.ofBits .f32 0xFF800000#32) (feat m c)
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  rw [tail_eq]
  funext i
  obtain ⟨b, o, a, rfl⟩ : ∃ (b : Fin 8) (o : Fin 256) (a : Fin 2048), i = ix3 b o a := ⟨i 0, i 1, i 2, eq_ix3 i⟩
  have hp : b.val * 2048 + a.val < 16384 := by have := b.isLt; have := a.isLt; omega
  refine (transpose_ix3_021_apply _ _ b o a).trans ?_
  refine (shapeCast_mc_abc_apply _ _ b a o (⟨b.val * 2048 + a.val, hp⟩ : Fin 16384) rfl).trans ?_
  unfold outRows
  rw [V_main_arg4, V_main_arg5, V_main_arg6, V_main_arg7, V_main_arg8, V_main_arg9]
  refine rowsPooled_merge _ _ (feat m c) _ _ _ _ _ _ _ b o a (⟨b.val * 2048 + a.val, hp⟩ : Fin 16384) fun k cc => ?_
  rw [V_v26]
  exact shapeCast_abcd_mcd_apply (feat m c) _ b a k cc (⟨b.val * 2048 + a.val, hp⟩ : Fin 16384) rfl

/-- The kernel program's run: every weakly fair execution terminates with the result buffer at `pooled` of the
    feature array and the arguments unchanged. -/
theorem run : θ_run defs (onTc (τ := τ) (main (F := Ideal))) ⟨m, fun _ => 0, ρ⟩ (fun r => ∀ c : Dev nD,
      r.2.mem ((c.tc : Thread nD τ).loc main_v29)
        = pooled (Ideal.ofBits .f32 0x00000000#32) (Ideal.ofBits .f32 0xFF800000#32) (feat m c)
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v29 (Pipeline.mem_restRefs_of main_v29 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).1 2).trans (((dats m 0 c).arrAt_in 2 rfl _).trans ((A_eq m c 2).trans (V_main_arg5 m c))),
      ((h c).1 3).trans (((dats m 0 c).arrAt_in 3 rfl _).trans ((A_eq m c 3).trans (V_main_arg6 m c))),
      ((h c).1 4).trans (((dats m 0 c).arrAt_in 4 rfl _).trans ((A_eq m c 4).trans (V_main_arg7 m c))),
      ((h c).1 5).trans (((dats m 0 c).arrAt_in 5 rfl _).trans ((A_eq m c 5).trans (V_main_arg8 m c))),
      ((h c).1 6).trans (((dats m 0 c).arrAt_in 6 rfl _).trans ((A_eq m c 6).trans (V_main_arg9 m c)))⟩)
    (run_main m ρ)

end Cert.KernelIdeal.Result

end
-- ==== Proof.lean ====
/-
  The certificate of the point-convolution kernel against its reference: the three frames, the (empty) list of
  idealization rewrites, and the equality of the two results over the extended reals.

  Both programs gather, for each of 8 · 2048 anchors, the 32 neighbours' relative coordinates and features into
  rows of 67 numbers, send every row through the same three dense layers with a rectifier after each, and keep, per
  anchor and output channel, the greatest of the 32 values. The kernel does this on 64 blocks of 256 merged
  (batch, anchor) rows and lays the result out afterwards; the reference does it on the whole array at once. Over
  the extended reals the roundings on the way into the kernel's matrix products are the identity and a matrix product
  into the zero matrix is the plain sum, so both are the function `Cert.PointConv.pooled` of the shared feature
  array: the kernel's run (Proof/KernelResult.lean) and the reference's generated run read by
  Proof/RefValue.lean end at the same term once the arguments' agreement is rewritten. No law that would need
  finite inputs is used: sums and maxima are met in the same order of factors on both sides.
-/
import proofs.«126753_j20684562497678_1_alg».proof.Defs
import proofs.«126753_j20684562497678_1_alg».proof.Proof.Gen.Kernel
import proofs.«126753_j20684562497678_1_alg».proof.Proof.Gen.Kernel.Frame
import proofs.«126753_j20684562497678_1_alg».proof.Proof.Gen.KernelIdeal
import proofs.«126753_j20684562497678_1_alg».proof.Proof.Gen.KernelIdeal.Frame
import proofs.«126753_j20684562497678_1_alg».proof.Proof.Gen.ReferenceIdeal
import proofs.«126753_j20684562497678_1_alg».proof.Proof.Gen.Pre_finite_inputs
import proofs.«126753_j20684562497678_1_alg».proof.Proof.Gen.ReferenceIdeal.Run
import proofs.«126753_j20684562497678_1_alg».proof.Proof.Gen.ReferenceIdeal.Read
import proofs.«126753_j20684562497678_1_alg».proof.Proof.RefValue
import proofs.«126753_j20684562497678_1_alg».proof.Proof.KernelResult

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result at `pooled` of the feature array of the kernel program's arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
